-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : IVec S1600000 32) (main_arg6 : IVec S1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S1650000x128 : Shape := ⟨2, ![1650000, 128]⟩
abbrev S1x128 : Shape := ⟨2, ![1, 128]⟩
abbrev S5000x128 : Shape := ⟨2, ![5000, 128]⟩
abbrev S1x50000x128 : Shape := ⟨3, ![1, 50000, 128]⟩

abbrev nBuf : Space → Nat
  | .hbm => 65
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S50000, .i32⟩
  | .hbm, ⟨8, _⟩ => ⟨S1650000, .i32⟩
  | .hbm, ⟨9, _⟩ => ⟨S1650000, .i32⟩
  | .hbm, ⟨10, _⟩ => ⟨S_, .f32⟩
  | .hbm, ⟨11, _⟩ => ⟨S1650000, .f32⟩
  | .hbm, ⟨12, _⟩ => ⟨S_, .f32⟩
  | .hbm, ⟨13, _⟩ => ⟨S50000, .f32⟩
  | .hbm, ⟨14, _⟩ => ⟨S1650000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S1650000x1, .i32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x128, .f32⟩
  | .hbm, ⟨24, _⟩ => ⟨S50000x128, .f32⟩
  | .hbm, ⟨25, _⟩ => ⟨S_, .i32⟩
  | .hbm, ⟨26, _⟩ => ⟨S1650000, .i32⟩
  | .hbm, ⟨27, _⟩ => ⟨S1650000, .i1⟩
  | .hbm, ⟨28, _⟩ => ⟨S_, .i32⟩
  | .hbm, ⟨29, _⟩ => ⟨S1650000, .i32⟩
  | .hbm, ⟨30, _⟩ => ⟨S1650000, .i32⟩
  | .hbm, ⟨31, _⟩ => ⟨S1650000, .i32⟩
  | .hbm, ⟨32, _⟩ => ⟨S1650000x1, .i32⟩
  | .hbm, ⟨33, _⟩ => ⟨S1650000x128, .f32⟩
  | .hbm, ⟨34, _⟩ => ⟨S_, .f32⟩
  | .hbm, ⟨35, _⟩ => ⟨S50000x128, .f32⟩
  | .hbm, ⟨36, _⟩ => ⟨S1650000x1, .i32⟩
  | .hbm, ⟨37, _⟩ => ⟨S50000x128, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S1650000, .i32⟩
  | .hbm, ⟨48, _⟩ => ⟨S1650000, .i1⟩
  | .hbm, ⟨49, _⟩ => ⟨S_, .i32⟩
  | .hbm, ⟨50, _⟩ => ⟨S1650000, .i32⟩
  | .hbm, ⟨51, _⟩ => ⟨S1650000, .i32⟩
  | .hbm, ⟨52, _⟩ => ⟨S1650000, .i32⟩
  | .hbm, ⟨53, _⟩ => ⟨S1650000x1, .i32⟩
  | .hbm, ⟨54, _⟩ => ⟨S1650000x128, .f32⟩
  | .hbm, ⟨55, _⟩ => ⟨S_, .f32⟩
  | .hbm, ⟨56, _⟩ => ⟨S50000x128, .f32⟩
  | .hbm, ⟨57, _⟩ => ⟨S1650000x1, .i32⟩
  | .hbm, ⟨58, _⟩ => ⟨S50000x128, .f32⟩
  | .hbm, ⟨59, _⟩ => ⟨S50000x1, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S1x50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_4 : Ref sig .tc := ⟨.hbm, 46, rfl⟩
abbrev main_v33 : Ref sig .tc := ⟨.hbm, 47, rfl⟩
abbrev main_v34 : Ref sig .tc := ⟨.hbm, 48, rfl⟩
abbrev main_c_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S50000x128_S1x50000x128_1_2 : S50000x128.BroadcastsInDim S1x50000x128 (![1, 2] : Fin 2 → Fin S1x50000x128.rank)
  scatter_S50000_S1650000x1_S1650000_n_0_0_1_wf : ScatterDims.WF S50000 S1650000x1 S1650000 [] [0] [0] 1
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v27) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S1650000x128 : Shape := ⟨2, ![1650000, 128]⟩
abbrev S1x128 : Shape := ⟨2, ![1, 128]⟩
abbrev S1x50000x128 : Shape := ⟨3, ![1, 50000, 128]⟩

abbrev nBuf : Space → Nat
  | .hbm => 72
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S50000, .i32⟩
  | .hbm, ⟨8, _⟩ => ⟨S1650000, .i32⟩
  | .hbm, ⟨9, _⟩ => ⟨S1650000, .i32⟩
  | .hbm, ⟨10, _⟩ => ⟨S_, .f32⟩
  | .hbm, ⟨11, _⟩ => ⟨S1650000, .f32⟩
  | .hbm, ⟨12, _⟩ => ⟨S_, .f32⟩
  | .hbm, ⟨13, _⟩ => ⟨S50000, .f32⟩
  | .hbm, ⟨14, _⟩ => ⟨S1650000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S1650000x1, .i32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x128, .f32⟩
  | .hbm, ⟨24, _⟩ => ⟨S50000x128, .f32⟩
  | .hbm, ⟨25, _⟩ => ⟨S_, .i32⟩
  | .hbm, ⟨26, _⟩ => ⟨S1650000, .i32⟩
  | .hbm, ⟨27, _⟩ => ⟨S1650000, .i1⟩
  | .hbm, ⟨28, _⟩ => ⟨S_, .i32⟩
  | .hbm, ⟨29, _⟩ => ⟨S1650000, .i32⟩
  | .hbm, ⟨30, _⟩ => ⟨S1650000, .i32⟩
  | .hbm, ⟨31, _⟩ => ⟨S1650000, .i32⟩
  | .hbm, ⟨32, _⟩ => ⟨S1650000x1, .i32⟩
  | .hbm, ⟨33, _⟩ => ⟨S1650000x128, .f32⟩
  | .hbm, ⟨34, _⟩ => ⟨S_, .f32⟩
  | .hbm, ⟨35, _⟩ => ⟨S50000x128, .f32⟩
  | .hbm, ⟨36, _⟩ => ⟨S1650000x1, .i32⟩
  | .hbm, ⟨37, _⟩ => ⟨S50000x128, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x128, .f32⟩
  | .hbm, ⟨60, _⟩ => ⟨S_, .f32⟩
  | .hbm, ⟨61, _⟩ => ⟨S50000x128, .f32⟩
  | .hbm, ⟨62, _⟩ => ⟨S1650000x1, .i32⟩
  | .hbm, ⟨63, _⟩ => ⟨S50000x128, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S1x50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_cst : Ref sig .tc := ⟨.hbm, 45, rfl⟩
abbrev main_call0_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000x128_S1x50000x128_1_2 : S50000x128.BroadcastsInDim S1x50000x128 (![1, 2] : Fin 2 → Fin S1x50000x128.rank)
  scatter_S50000_S1650000x1_S1650000_n_0_0_1_wf : ScatterDims.WF S50000 S1650000x1 S1650000 [] [0] [0] 1
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result buffer named.

  @main is five segments: a stretch of host operations, the first dense layer's pallas_call, a second
  stretch, the second layer's pallas_call, and a last broadcast. The buffer contents at the boundaries are
  a fold through these segments; the last boundary's contents are `Gen.W5`. Every weakly fair execution
  terminates, without a fault, with every unscoped buffer at `W5`; kept here are the result buffer
  `main_v48` (read at `W5`, still unopened) and the seven arguments (each read back through the fold to
  its launch contents).
-/
import proofs.«171438_j19997367730675_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the arguments as launched. -/
theorem run_value : θ_run defs (onTc (τ := τ) (main (F := F))) ⟨m, fun _ => 0, ρ⟩ (fun r => ∀ c : Dev nD,
      r.2.mem ((c.tc : Thread nD τ).loc main_v48) = W5 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v48 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c)⟩)

end Cert.KernelIdeal.Net

end
-- ==== Proof.DenseSpec.lean ====
/-
  One dense layer, entry by entry.

  For a matrix `X` of `n` rows and 128 columns, weights `W` (128 by 128) and a bias `B` laid out as one
  row of 128, entry `(r, j)` of `X·W + B` is the sum over `k` of `X(r,k)·W(k,j)`, plus `B(0,j)`. The
  first layer also takes the larger of that and zero. Everything is over the extended reals: the only
  laws used anywhere are that a sum of products is a sum of products, so no finiteness is needed.
-/
import Idealize.ShloMosaic.PureOps.Ideal
import Idealize.ShloMosaic.PureOps.Ideal.Laws
import Idealize.ShloMosaic.Lib.ValueIdx

noncomputable section

namespace Cert.Dense

open Idealize.ShloMosaic Idealize.ShloMosaic.ValueIdx

/-- Entry `(r, j)` of `X·W + B`: the row's 128 products summed, plus the bias at the column. -/
def affine {n : ℕ} (X : (⟨2, ![n, 128]⟩ : Shape).Idx → EReal) (W : (⟨2, ![128, 128]⟩ : Shape).Idx → EReal)
    (B : (⟨2, ![1, 128]⟩ : Shape).Idx → EReal) (r : Fin n) (j : Fin 128) : EReal :=
  (∑ k : Fin 128, X (ix2 r k) * W (ix2 k j)) + B (ix2 (0 : Fin 1) j)

/-- The whole array `X·W + B`, read at an index by its two coordinates. -/
def affineArr {n : ℕ} (X : (⟨2, ![n, 128]⟩ : Shape).Idx → EReal) (W : (⟨2, ![128, 128]⟩ : Shape).Idx → EReal)
    (B : (⟨2, ![1, 128]⟩ : Shape).Idx → EReal) : (⟨2, ![n, 128]⟩ : Shape).Idx → EReal :=
  fun i => affine X W B ⟨(i 0).val, idx2_lt0 i⟩ ⟨(i 1).val, idx2_lt1 i⟩

theorem affineArr_ix2 {n : ℕ} (X : (⟨2, ![n, 128]⟩ : Shape).Idx → EReal) (W : (⟨2, ![128, 128]⟩ : Shape).Idx → EReal)
    (B : (⟨2, ![1, 128]⟩ : Shape).Idx → EReal) (r : Fin n) (j : Fin 128) :
    affineArr X W B (ix2 r j) = affine X W B r j := rfl

/-- Each entry replaced by the larger of itself and the float zero (kept as its word, never evaluated). -/
def reluArr {n : ℕ} (A : (⟨2, ![n, 128]⟩ : Shape).Idx → EReal) : (⟨2, ![n, 128]⟩ : Shape).Idx → EReal :=
  fun i => max (A i) (Ideal.ofBits .f32 0x00000000#32)

theorem reluArr_apply {n : ℕ} (A : (⟨2, ![n, 128]⟩ : Shape).Idx → EReal) (i : (⟨2, ![n, 128]⟩ : Shape).Idx) :
    reluArr A i = max (A i) (Ideal.ofBits .f32 0x00000000#32) := rfl

end Cert.Dense

end
-- ==== Proof.BlockProduct.lean ====
/-
  The matrix product of one block, at an entry.

  Each grid point of either layer multiplies a block of 5000 rows by the whole 128-by-128 weight matrix
  into a zero accumulator. Over the extended reals that product, at entry `(p, q)`, is the sum over the 128
  contracted positions `k` of the block's `(p, k)` entry times the weights' `(k, q)` entry: the contraction's
  one-axis index is re-indexed by `Fin 128` and the dimension numbers' operand indices are read coordinate
  by coordinate.
-/
import proofs.«171438_j19997367730675_1_alg».proof.Proof.Gen.KernelIdeal
import Idealize.ShloMosaic.Lib.ValueIdx
import Idealize.ShloMosaic.PureOps.Ideal.Laws

set_option maxRecDepth 16384

noncomputable section

namespace Cert.KernelIdeal.Net

open Cert.KernelIdeal
open Idealize.ShloMosaic Idealize.ShloMosaic.ValueIdx

/-- The zero offsets of a whole-block access, however they are spelt. -/
theorem hz2 : (![0, 0] : Fin 2 → Nat) = fun _ => 0 := funext fun a => by fin_cases a <;> rfl

/-! ## The block's matrix product at an entry -/

theorem dot5000_lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot5000_lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem dot5000_rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem dot5000_rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block's product into the zero accumulator, at entry `(p, q)`: row `p` of the left factor against
    column `q` of the right, summed over the 128 contracted positions. -/
theorem matmul5000_at {φ₁ φ₂ : FTy} (l : FVec Ideal S5000x128 φ₁) (r : FVec Ideal S128x128 φ₂) (p : Fin 5000) (q : Fin 128) :
    matmul (F := Ideal) dot_S5000x128_S128x128_S5000x128_1_0_0_1_n_n none l r (constant S5000x128 .f32 0x00000000#32) (ix2 p q)
      = ∑ k : Fin 128, l (ix2 p k) * r (ix2 k q) := by
  show FloatOps.matmul dot_S5000x128_S128x128_S5000x128_1_0_0_1_n_n none l r (constant S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact dot5000_lhs_row _ _
    | ⟨1, _⟩ => exact (dot5000_lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (dot5000_rhs_row _ _).trans hk
    | ⟨1, _⟩ => exact dot5000_rhs_col _ _)
  rw [el, er]

end Cert.KernelIdeal.Net

end
-- ==== Proof.Region0.lean ====
/-
  What the first layer's pallas_call leaves in its result array.

  The grid has ten points; point `t` multiplies rows `5000·t … 5000·t + 4999` of the aggregated features
  by the whole weight matrix, adds the bias row to every row, takes the larger of each entry and zero, and
  writes the block back over the same rows of the result. An entry of a block depends only on its own row
  of the features, so each block is a restriction of ONE whole-array function of the three arrays the
  region is entered with, and the ten blocks cover the 50000 rows: after the region the result array is
  that function. Stated for any contents `V` the region may be entered with.
-/
import proofs.«171438_j19997367730675_1_alg».proof.Proof.Gen.KernelIdeal.Frame
import proofs.«171438_j19997367730675_1_alg».proof.Proof.DenseSpec
import proofs.«171438_j19997367730675_1_alg».proof.Proof.BlockProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.SL.Sem Idealize.ShloMosaic.ValueIdx
open Idealize.ShloMosaic.Pipeline (Dat)

/-! ## The body's stored value at an entry -/

/-- What the first layer's body stores, at entry `(p, q)` of its block: the larger of zero and the block's
    row `p` times the weights' column `q` plus the bias at `q` (the two roundings to bf16 on the way into
    the product are the identity on extended reals). -/
theorem pay0_apply (x0 : Vec Ideal S5000x128 .f32) (x1 : Vec Ideal S128x128 .f32) (x2 : Vec Ideal S1x128 .f32)
    (p : Fin 5000) (q : Fin 128) :
    k0_pay1 (F := Ideal) x0 x1 x2 (ix2 p q) = max (Cert.Dense.affine x0 x1 x2 p q) (Ideal.ofBits .f32 0x00000000#32) := by
  unfold k0_pay1 Cert.Dense.affine
  show max (matmul (F := Ideal) dot_S5000x128_S128x128_S5000x128_1_0_0_1_n_n none _ _ (constant S5000x128 .f32 0x00000000#32) (ix2 p q)
      + broadcastTo S5000x128 (shapeCast S1x128 x2 shapeCasts_S1x128_S1x128) broadcasts_S1x128_S5000x128 (ix2 p q)) _ = _
  rw [matmul5000_at, broadcastTo_1b_ab_apply]
  simp only [shapeCast_self]
  rfl

/-! ## From the ten blocks to the array -/

section Region
variable (V : (c : Dev nD) → (b : Ref sig .tc) → Buf (Elt Ideal) ((c : Thread nD τ).loc b))

/-- The printed index maps over the ten points: the feature block and the result block at point `t` are
    block `t` of the rows and the one block of the columns; weights and bias are their arrays' only block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first layer as one function of the three arrays the region is entered with. -/
abbrev out0 (c : Dev nD) : S50000x128.Idx → EReal :=
  Cert.Dense.reluArr (n := 50000) (Cert.Dense.affineArr (n := 50000) (V c main_v27 : S50000x128.Idx → EReal)
    (V c main_arg1 : S128x128.Idx → EReal) (V c main_v28 : S1x128.Idx → EReal))

/-- Entry `(p, k)` of the feature block at point `t` is the feature array's entry `(5000·t + p, k)`. -/
theorem iblk0_feat (c : Dev nD) (t : Fin cfg0.N) (p : Fin 5000) (k : Fin 128) (i : S50000x128.Idx)
    (h0 : (i 0).val = t.val * 5000 + p.val) (h1 : (i 1).val = k.val) :
    (iblk0 V c 0 t : Vec Ideal S5000x128 .f32) (ix2 p k) = (V c main_v27 : S50000x128.Idx → EReal) i := by
  obtain ⟨e00, e01, -⟩ := idx_facts0 t
  unfold iblk0
  rw [View.read_apply]
  show V c main_v27 _ = V c main_v27 _
  congr 1
  funext a
  apply Fin.ext
  match a with
  | ⟨0, _⟩ => show win0_0.index t 0 * 5000 + 1 * p.val = (i 0).val; rw [e00, h0]; omega
  | ⟨1, _⟩ => show win0_0.index t 1 * 128 + 1 * k.val = (i 1).val; rw [e01, h1]; omega

/-- The weight block at every point is the whole weight array. -/
theorem iblk0_weight (c : Dev nD) (t : Fin cfg0.N) (k q : Fin 128) :
    (iblk0 V c 1 t : Vec Ideal S128x128 .f32) (ix2 k q) = (V c main_arg1 : S128x128.Idx → EReal) (ix2 k q) := by
  obtain ⟨-, -, e10, e11, -⟩ := idx_facts0 t
  unfold iblk0
  rw [View.read_apply]
  show V c main_arg1 _ = V c main_arg1 _
  congr 1
  funext a
  apply Fin.ext
  match a with
  | ⟨0, _⟩ => show win0_1.index t 0 * 128 + 1 * k.val = k.val; rw [e10]; omega
  | ⟨1, _⟩ => show win0_1.index t 1 * 128 + 1 * q.val = q.val; rw [e11]; omega

/-- The bias block at every point is the whole bias row. -/
theorem iblk0_bias (c : Dev nD) (t : Fin cfg0.N) (q : Fin 128) :
    (iblk0 V c 2 t : Vec Ideal S1x128 .f32) (ix2 (0 : Fin 1) q) = (V c main_v28 : S1x128.Idx → EReal) (ix2 (0 : Fin 1) q) := by
  obtain ⟨-, -, -, -, e20, e21, -⟩ := idx_facts0 t
  unfold iblk0
  rw [View.read_apply]
  show V c main_v28 _ = V c main_v28 _
  congr 1
  funext a
  apply Fin.ext
  match a with
  | ⟨0, _⟩ => show win0_2.index t 0 * 1 + 1 * 0 = 0; rw [e20]
  | ⟨1, _⟩ => show win0_2.index t 1 * 128 + 1 * q.val = q.val; rw [e21]; omega

/-- WHAT POINT `t` WRITES BACK is block `t` of the layer's function of the arrays as the region finds them. -/
theorem flushed0_eq (c : Dev nD) (t : Fin cfg0.N) :
    (dat0 V c).flushed 3 t = ((cfg0.win 3).blk t).view.read (Elt Ideal) (out0 V c) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S1x128) hz2]
  obtain ⟨-, -, -, -, -, -, e30, e31⟩ := idx_facts0 t
  funext y
  have hp : (y 0).val < 5000 := (y 0).isLt
  have hq : (y 1).val < 128 := (y 1).isLt
  have hN : t.val < 10 := Nat.lt_of_lt_of_eq t.isLt N_0
  have hy : (win0 3).xinj (grid0.coords t) y = ix2 (⟨(y 0).val, hp⟩ : Fin 5000) (⟨(y 1).val, hq⟩ : Fin 128) :=
    funext fun a => by
      match a with
      | ⟨0, _⟩ => rfl
      | ⟨1, _⟩ => rfl
  show k0_pay1 (iblk0 V c 0 t) (iblk0 V c 1 t) (iblk0 V c 2 t) ((win0 3).xinj (grid0.coords t) y) = _
  rw [hy]
  refine (pay0_apply (iblk0 V c 0 t) (iblk0 V c 1 t) (iblk0 V c 2 t) ⟨(y 0).val, hp⟩ ⟨(y 1).val, hq⟩).trans ?_
  rw [View.read_apply]
  show _ = out0 V c (((View.whole main_v29).slice ((win0 3).rect t)).emb y)
  have hrow : t.val * 5000 + (y 0).val < 50000 := by omega
  have hemb : ((View.whole main_v29).slice ((win0 3).rect t)).emb y
      = ix2 (⟨t.val * 5000 + (y 0).val, hrow⟩ : Fin 50000) (⟨(y 1).val, hq⟩ : Fin 128) :=
    funext fun a => Fin.ext (by
      match a with
      | ⟨0, _⟩ => show win0_3.index t 0 * 5000 + 1 * (y 0).val = t.val * 5000 + (y 0).val; rw [e30]; omega
      | ⟨1, _⟩ => show win0_3.index t 1 * 128 + 1 * (y 1).val = (y 1).val; rw [e31]; omega)
  rw [hemb]
  unfold out0
  rw [Cert.Dense.reluArr_apply, Cert.Dense.affineArr_ix2]
  unfold Cert.Dense.affine
  refine congrArg (fun s => max s (Ideal.ofBits .f32 0x00000000#32)) ?_
  refine congrArg₂ (· + ·) (Finset.sum_congr rfl fun k _ => ?_) (iblk0_bias V c t ⟨(y 1).val, hq⟩)
  rw [iblk0_feat V c t ⟨(y 0).val, hp⟩ k (ix2 (⟨t.val * 5000 + (y 0).val, hrow⟩ : Fin 50000) k) rfl rfl,
    iblk0_weight V c t k ⟨(y 1).val, hq⟩]

/-- An index of the result array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v29).slice (win0_3.rect t)).set ↔ _
  rw [View.set_slice_whole, Rect.mem_set_unit]
  exact Iff.rfl

/-- Every index of the result array is in the block of the point its row falls to: row `r` in point `r / 5000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have ht : (i 0).val / 5000 < cfg0.N := by rw [show cfg0.N = 10 from N_0]; omega
  obtain ⟨-, -, -, -, -, -, e30, e31⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e30]
    show (i 0).val / 5000 * 5000 ≤ (i 0).val ∧ (i 0).val < (i 0).val / 5000 * 5000 + 5000
    omega
  | ⟨1, _⟩ =>
    show win0_3.index ⟨(i 0).val / 5000, ht⟩ 1 * 128 ≤ (i 1).val ∧ (i 1).val < win0_3.index ⟨(i 0).val / 5000, ht⟩ 1 * 128 + 128
    rw [e31]
    omega

/-- THE RESULT ARRAY after the first region: the layer's function of the arrays the region was entered with. -/
theorem final0 (c : Dev nD) : (dat0 V c).arrAt 3 cfg0.N = out0 V c :=
  (dat0 V c).arrAt_eq_of_cover 3 (out0 V c) (fun t _ => flushed0_eq V c t) cover0

end Region

end Cert.KernelIdeal.Net

end
-- ==== Proof.Region1.lean ====
/-
  What the second layer's pallas_call leaves in its result array.

  As in the first layer the grid has ten points; point `t` multiplies rows `5000·t … 5000·t + 4999` of the
  second aggregation by the whole weight matrix and adds the bias row to every row — no maximum this
  time — and writes the block back over the same rows of the result. Each block is a restriction of ONE
  whole-array function of the three arrays the region is entered with, and the ten blocks cover the
  50000 rows: after the region the result array is that function. Stated for any contents `V` the region
  may be entered with.
-/
import proofs.«171438_j19997367730675_1_alg».proof.Proof.Gen.KernelIdeal.Frame
import proofs.«171438_j19997367730675_1_alg».proof.Proof.DenseSpec
import proofs.«171438_j19997367730675_1_alg».proof.Proof.BlockProduct
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Net

open Cert.KernelIdeal Cert.KernelIdeal.Gen
open Idealize.ShloMosaic Idealize.ShloMosaic.TcCoe Idealize.SL.Sem Idealize.ShloMosaic.ValueIdx
open Idealize.ShloMosaic.Pipeline (Dat)

/-! ## The body's stored value at an entry -/

/-- What the second layer's body stores, at entry `(p, q)` of its block: the block's row `p` times the
    weights' column `q` plus the bias at `q` (the two roundings to bf16 on the way into the product are
    the identity on extended reals). -/
theorem pay1_apply (x0 : Vec Ideal S5000x128 .f32) (x1 : Vec Ideal S128x128 .f32) (x2 : Vec Ideal S1x128 .f32)
    (p : Fin 5000) (q : Fin 128) :
    k1_pay1 (F := Ideal) x0 x1 x2 (ix2 p q) = Cert.Dense.affine x0 x1 x2 p q := by
  unfold k1_pay1 Cert.Dense.affine
  show matmul (F := Ideal) dot_S5000x128_S128x128_S5000x128_1_0_0_1_n_n none _ _ (constant S5000x128 .f32 0x00000000#32) (ix2 p q)
      + broadcastTo S5000x128 (shapeCast S1x128 x2 shapeCasts_S1x128_S1x128) broadcasts_S1x128_S5000x128 (ix2 p q) = _
  rw [matmul5000_at, broadcastTo_1b_ab_apply]
  simp only [shapeCast_self]
  rfl

/-! ## From the ten blocks to the array -/

section Region
variable (V : (c : Dev nD) → (b : Ref sig .tc) → Buf (Elt Ideal) ((c : Thread nD τ).loc b))

/-- The printed index maps over the ten points: the aggregation's block and the result block at point `t` are
    block `t` of the rows and the one block of the columns; weights and bias are their arrays' only block. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The second layer as one function of the three arrays the region is entered with. -/
abbrev out1 (c : Dev nD) : S50000x128.Idx → EReal :=
  Cert.Dense.affineArr (n := 50000) (V c main_v45 : S50000x128.Idx → EReal)
    (V c main_arg3 : S128x128.Idx → EReal) (V c main_v46 : S1x128.Idx → EReal)

/-- Entry `(p, k)` of the aggregation's block at point `t` is the aggregation array's entry `(5000·t + p, k)`. -/
theorem iblk1_feat (c : Dev nD) (t : Fin cfg1.N) (p : Fin 5000) (k : Fin 128) (i : S50000x128.Idx)
    (h0 : (i 0).val = t.val * 5000 + p.val) (h1 : (i 1).val = k.val) :
    (iblk1 V c 0 t : Vec Ideal S5000x128 .f32) (ix2 p k) = (V c main_v45 : S50000x128.Idx → EReal) i := by
  obtain ⟨e00, e01, -⟩ := idx_facts1 t
  unfold iblk1
  rw [View.read_apply]
  show V c main_v45 _ = V c main_v45 _
  congr 1
  funext a
  apply Fin.ext
  match a with
  | ⟨0, _⟩ => show win1_0.index t 0 * 5000 + 1 * p.val = (i 0).val; rw [e00, h0]; omega
  | ⟨1, _⟩ => show win1_0.index t 1 * 128 + 1 * k.val = (i 1).val; rw [e01, h1]; omega

/-- The weight block at every point is the whole weight array. -/
theorem iblk1_weight (c : Dev nD) (t : Fin cfg1.N) (k q : Fin 128) :
    (iblk1 V c 1 t : Vec Ideal S128x128 .f32) (ix2 k q) = (V c main_arg3 : S128x128.Idx → EReal) (ix2 k q) := by
  obtain ⟨-, -, e10, e11, -⟩ := idx_facts1 t
  unfold iblk1
  rw [View.read_apply]
  show V c main_arg3 _ = V c main_arg3 _
  congr 1
  funext a
  apply Fin.ext
  match a with
  | ⟨0, _⟩ => show win1_1.index t 0 * 128 + 1 * k.val = k.val; rw [e10]; omega
  | ⟨1, _⟩ => show win1_1.index t 1 * 128 + 1 * q.val = q.val; rw [e11]; omega

/-- The bias block at every point is the whole bias row. -/
theorem iblk1_bias (c : Dev nD) (t : Fin cfg1.N) (q : Fin 128) :
    (iblk1 V c 2 t : Vec Ideal S1x128 .f32) (ix2 (0 : Fin 1) q) = (V c main_v46 : S1x128.Idx → EReal) (ix2 (0 : Fin 1) q) := by
  obtain ⟨-, -, -, -, e20, e21, -⟩ := idx_facts1 t
  unfold iblk1
  rw [View.read_apply]
  show V c main_v46 _ = V c main_v46 _
  congr 1
  funext a
  apply Fin.ext
  match a with
  | ⟨0, _⟩ => show win1_2.index t 0 * 1 + 1 * 0 = 0; rw [e20]
  | ⟨1, _⟩ => show win1_2.index t 1 * 128 + 1 * q.val = q.val; rw [e21]; omega

/-- WHAT POINT `t` WRITES BACK is block `t` of the layer's function of the arrays as the region finds them. -/
theorem flushed1_eq (c : Dev nD) (t : Fin cfg1.N) :
    (dat1 V c).flushed 3 t = ((cfg1.win 3).blk t).view.read (Elt Ideal) (out1 V c) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x128) hz2, View.ld_unit_zero (S := S1x128) hz2]
  obtain ⟨-, -, -, -, -, -, e30, e31⟩ := idx_facts1 t
  funext y
  have hp : (y 0).val < 5000 := (y 0).isLt
  have hq : (y 1).val < 128 := (y 1).isLt
  have hN : t.val < 10 := Nat.lt_of_lt_of_eq t.isLt N_1
  have hy : (win1 3).xinj (grid1.coords t) y = ix2 (⟨(y 0).val, hp⟩ : Fin 5000) (⟨(y 1).val, hq⟩ : Fin 128) :=
    funext fun a => by
      match a with
      | ⟨0, _⟩ => rfl
      | ⟨1, _⟩ => rfl
  show k1_pay1 (iblk1 V c 0 t) (iblk1 V c 1 t) (iblk1 V c 2 t) ((win1 3).xinj (grid1.coords t) y) = _
  rw [hy]
  refine (pay1_apply (iblk1 V c 0 t) (iblk1 V c 1 t) (iblk1 V c 2 t) ⟨(y 0).val, hp⟩ ⟨(y 1).val, hq⟩).trans ?_
  rw [View.read_apply]
  show _ = out1 V c (((View.whole main_v47).slice ((win1 3).rect t)).emb y)
  have hrow : t.val * 5000 + (y 0).val < 50000 := by omega
  have hemb : ((View.whole main_v47).slice ((win1 3).rect t)).emb y
      = ix2 (⟨t.val * 5000 + (y 0).val, hrow⟩ : Fin 50000) (⟨(y 1).val, hq⟩ : Fin 128) :=
    funext fun a => Fin.ext (by
      match a with
      | ⟨0, _⟩ => show win1_3.index t 0 * 5000 + 1 * (y 0).val = t.val * 5000 + (y 0).val; rw [e30]; omega
      | ⟨1, _⟩ => show win1_3.index t 1 * 128 + 1 * (y 1).val = (y 1).val; rw [e31]; omega)
  rw [hemb]
  unfold out1
  rw [Cert.Dense.affineArr_ix2]
  unfold Cert.Dense.affine
  refine congrArg₂ (· + ·) (Finset.sum_congr rfl fun k _ => ?_) (iblk1_bias V c t ⟨(y 1).val, hq⟩)
  rw [iblk1_feat V c t ⟨(y 0).val, hp⟩ k (ix2 (⟨t.val * 5000 + (y 0).val, hrow⟩ : Fin 50000) k) rfl rfl,
    iblk1_weight V c t k ⟨(y 1).val, hq⟩]

/-- An index of the result array is in point `t`'s block iff each coordinate is in the block's range on its axis. -/
theorem mem_blk1 (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v47).slice (win1_3.rect t)).set ↔ _
  rw [View.set_slice_whole, Rect.mem_set_unit]
  exact Iff.rfl

/-- Every index of the result array is in the block of the point its row falls to: row `r` in point `r / 5000`. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have ht : (i 0).val / 5000 < cfg1.N := by rw [show cfg1.N = 10 from N_1]; omega
  obtain ⟨-, -, -, -, -, -, e30, e31⟩ := idx_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ 0 * 5000 ≤ (i 0).val ∧ (i 0).val < win1_3.index ⟨(i 0).val / 5000, ht⟩ 0 * 5000 + 5000
    rw [e30]
    show (i 0).val / 5000 * 5000 ≤ (i 0).val ∧ (i 0).val < (i 0).val / 5000 * 5000 + 5000
    omega
  | ⟨1, _⟩ =>
    show win1_3.index ⟨(i 0).val / 5000, ht⟩ 1 * 128 ≤ (i 1).val ∧ (i 1).val < win1_3.index ⟨(i 0).val / 5000, ht⟩ 1 * 128 + 128
    rw [e31]
    omega

/-- THE RESULT ARRAY after the second region: the layer's function of the arrays the region was entered with. -/
theorem final1 (c : Dev nD) : (dat1 V c).arrAt 3 cfg1.N = out1 V c :=
  (dat1 V c).arrAt_eq_of_cover 3 (out1 V c) (fun t _ => flushed1_eq V c t) cover1

end Region

end Cert.KernelIdeal.Net

end
-- ==== Proof.HostAggregate.lean ====
/-
  The first stretch of host operations, read at the buffer the first layer multiplies.

  Before the first pallas_call, @main computes on the host the two degree normalisations (the reciprocal
  square roots of the out- and in-degree counts, self loops included), scales the node features by the
  first, gathers them along the edges' sources, sums them into the edges' targets and scales by the
  second. The reference program computes the very same chain, operation for operation; so the buffer is
  stated as the reference's own stage of the launch arguments, and the chain itself is never opened.
-/
import proofs.«171438_j19997367730675_1_alg».proof.Proof.Gen.KernelIdeal.Frame
import proofs.«171438_j19997367730675_1_alg».proof.Proof.Gen.ReferenceIdeal.Read
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The aggregated, normalised features the first layer multiplies are the reference's stage of the launch
    arguments: the same operations in the same order on both sides. -/
theorem W1_v27 (c : Dev nD) :
    W1 m ρ c (Proc.devRef .tc main_v27)
      = Cert.ReferenceIdeal.Read.val_main_v27 (F := Ideal) (m ((c : Thread nD τ).loc main_arg0))
          (m ((c : Thread nD τ).loc main_arg5)) (m ((c : Thread nD τ).loc main_arg6)) := by
  show StableHlo.after hostOps0 (W0 m ρ c) (Proc.devRef .tc main_v27) = _
  after_results_simp <;> rfl

end Cert.KernelIdeal.Net

end
-- ==== Proof.HostSmall.lean ====
/-
  The first stretch of host operations, read at the small buffers later segments use: the bias of the
  first layer laid out as one row, both layers' weights and the second layer's bias, the two degree normalisations, and the
  edge lists with the self loops appended. Each is the reference's own stage of the launch arguments
  (the two programs compute them by the same operations), or the argument itself.
-/
import proofs.«171438_j19997367730675_1_alg».proof.Proof.Gen.KernelIdeal.Frame
import proofs.«171438_j19997367730675_1_alg».proof.Proof.Gen.ReferenceIdeal.Read
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The first layer's bias as one row of 128: the argument recast. -/
theorem W1_v28 (c : Dev nD) :
    W1 m ρ c (Proc.devRef .tc main_v28) = shapeCast S1x128 (m ((c : Thread nD τ).loc main_arg2)) shapeCasts_S128_S1x128 := by
  show StableHlo.after hostOps0 (W0 m ρ c) (Proc.devRef .tc main_v28) = _
  after_results_simp <;> rfl

/-- The first layer's weights are not written by the stretch. -/
theorem W1_arg1 (c : Dev nD) :
    W1 m ρ c (Proc.devRef .tc main_arg1) = m ((c : Thread nD τ).loc main_arg1) := by
  show StableHlo.after hostOps0 (W0 m ρ c) (Proc.devRef .tc main_arg1) = _
  after_results_simp <;> rfl

/-- The second layer's weights are not written by the stretch. -/
theorem W1_arg3 (c : Dev nD) :
    W1 m ρ c (Proc.devRef .tc main_arg3) = m ((c : Thread nD τ).loc main_arg3) := by
  show StableHlo.after hostOps0 (W0 m ρ c) (Proc.devRef .tc main_arg3) = _
  after_results_simp <;> rfl

/-- Nor is the second layer's bias. -/
theorem W1_arg4 (c : Dev nD) :
    W1 m ρ c (Proc.devRef .tc main_arg4) = m ((c : Thread nD τ).loc main_arg4) := by
  show StableHlo.after hostOps0 (W0 m ρ c) (Proc.devRef .tc main_arg4) = _
  after_results_simp <;> rfl

/-- The out-degree normalisation. -/
theorem W1_v10 (c : Dev nD) :
    W1 m ρ c (Proc.devRef .tc main_v10) = Cert.ReferenceIdeal.Read.val_main_v10 (F := Ideal) (m ((c : Thread nD τ).loc main_arg5)) := by
  show StableHlo.after hostOps0 (W0 m ρ c) (Proc.devRef .tc main_v10) = _
  after_results_simp <;> rfl

/-- The in-degree normalisation. -/
theorem W1_v11 (c : Dev nD) :
    W1 m ρ c (Proc.devRef .tc main_v11) = Cert.ReferenceIdeal.Read.val_main_v11 (F := Ideal) (m ((c : Thread nD τ).loc main_arg6)) := by
  show StableHlo.after hostOps0 (W0 m ρ c) (Proc.devRef .tc main_v11) = _
  after_results_simp <;> rfl

/-- The edges' sources with the self loops appended. -/
theorem W1_v1 (c : Dev nD) :
    W1 m ρ c (Proc.devRef .tc main_v1) = Cert.ReferenceIdeal.Read.val_main_v1 (F := Ideal) (m ((c : Thread nD τ).loc main_arg5)) := by
  show StableHlo.after hostOps0 (W0 m ρ c) (Proc.devRef .tc main_v1) = _
  after_results_simp <;> rfl

/-- The edges' targets with the self loops appended. -/
theorem W1_v2 (c : Dev nD) :
    W1 m ρ c (Proc.devRef .tc main_v2) = Cert.ReferenceIdeal.Read.val_main_v2 (F := Ideal) (m ((c : Thread nD τ).loc main_arg6)) := by
  show StableHlo.after hostOps0 (W0 m ρ c) (Proc.devRef .tc main_v2) = _
  after_results_simp <;> rfl

end Cert.KernelIdeal.Net

end
-- ==== Proof.HostMid.lean ====
/-
  The second and third stretches of host operations, read.

  Between the two pallas_calls @main aggregates again: it scales the first layer's output by the
  out-degree normalisation, gathers along the edges' sources, sums into the edges' targets and scales by
  the in-degree normalisation, reusing the normalisations and edge lists the first stretch computed. The
  first region wrote only its own result array, so those buffers still hold what the first stretch left,
  and the aggregation is the reference's first-aggregation stage applied to the first layer's output.
  After the second pallas_call one broadcast adds the leading unit axis.
-/
import proofs.«171438_j19997367730675_1_alg».proof.Proof.Gen.KernelIdeal.Frame
import proofs.«171438_j19997367730675_1_alg».proof.Proof.Gen.ReferenceIdeal.Read
import Idealize.ShloMosaic.Lib.StableHlo.Run
import proofs.«171438_j19997367730675_1_alg».proof.Proof.HostSmall
set_option maxRecDepth 16384

noncomputable section

namespace Cert.KernelIdeal.Net

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The second aggregation: the reference's aggregation stage of the first region's result array. -/
theorem W3_v45 (c : Dev nD) :
    W3 m ρ c (Proc.devRef .tc main_v45)
      = Cert.ReferenceIdeal.Read.val_main_v27 (F := Ideal) (W2 m ρ c (Proc.devRef .tc main_v29))
          (m ((c : Thread nD τ).loc main_arg5)) (m ((c : Thread nD τ).loc main_arg6)) := by
  show StableHlo.after hostOps1 (W2 m ρ c) (Proc.devRef .tc main_v45) = _
  after_results_simp
  rw [W2_of_ne m ρ c main_v10 (by decide), W2_of_ne m ρ c main_v11 (by decide), W2_of_ne m ρ c main_v1 (by decide),
    W2_of_ne m ρ c main_v2 (by decide), W1_v10, W1_v11, W1_v1, W1_v2]
  rfl

/-- The second layer's bias as one row of 128: the argument recast. -/
theorem W3_v46 (c : Dev nD) :
    W3 m ρ c (Proc.devRef .tc main_v46) = shapeCast S1x128 (m ((c : Thread nD τ).loc main_arg4)) shapeCasts_S128_S1x128 := by
  show StableHlo.after hostOps1 (W2 m ρ c) (Proc.devRef .tc main_v46) = _
  after_results_simp
  rw [W2_of_ne m ρ c main_arg4 (by decide), W1_arg4]
  rfl

/-- The second layer's weights reach the second region as launched. -/
theorem W3_arg3 (c : Dev nD) :
    W3 m ρ c (Proc.devRef .tc main_arg3) = m ((c : Thread nD τ).loc main_arg3) := by
  show StableHlo.after hostOps1 (W2 m ρ c) (Proc.devRef .tc main_arg3) = _
  after_results_simp
  rw [W2_of_ne m ρ c main_arg3 (by decide), W1_arg3]

/-- The result buffer is the second region's result array with a leading unit axis. -/
theorem W5_v48 (c : Dev nD) :
    W5 m ρ c (Proc.devRef .tc main_v48)
      = broadcastInDim S1x50000x128 ![1, 2] bcast_S50000x128_S1x50000x128_1_2 (W4 m ρ c (Proc.devRef .tc main_v47)) := by
  show StableHlo.after hostOps2 (W4 m ρ c) (Proc.devRef .tc main_v48) = _
  after_results_simp <;> rfl

end Cert.KernelIdeal.Net

end
-- ==== Proof.RefLayers.lean ====
/-
  The reference's two dense layers, entry by entry.

  The reference computes each layer on the host as a dot_general of the aggregated features with the
  weights, plus the bias broadcast over the rows (and, for the first layer, the larger of that and a
  broadcast zero). Read at entry `(r, j)` this is the sum over `k` of `X(r,k)·W(k,j)`, plus the bias at
  `j`: the layer specification applied to the stage that feeds the layer. The bias row `B` is any
  one-row array holding the bias (the kernel lays it out by a reshape, the reference by a broadcast).
-/
import proofs.«171438_j19997367730675_1_alg».proof.Proof.Gen.ReferenceIdeal.Read
import proofs.«171438_j19997367730675_1_alg».proof.Proof.DenseSpec
set_option maxRecDepth 16384

noncomputable section

namespace Cert.ReferenceIdeal.Net

open Cert.ReferenceIdeal Cert.ReferenceIdeal.Read
open Idealize.ShloMosaic Idealize.ShloMosaic.ValueIdx

/-- The first layer's output is the specification's `max(X·W + b, 0)` of the first aggregation. -/
theorem layer1_eq (x0 : (⟨S50000x128, .f32⟩ : BufTy).Contents (Elt Ideal)) (x1 : (⟨S128x128, .f32⟩ : BufTy).Contents (Elt Ideal))
    (x2 : (⟨S128, .f32⟩ : BufTy).Contents (Elt Ideal)) (x5 x6 : (⟨S1600000, .i32⟩ : BufTy).Contents (Elt Ideal))
    (B : S1x128.Idx → EReal) (hB : ∀ j : Fin 128, B (ix2 (0 : Fin 1) j) = x2 (ix1 j)) :
    val_main_v32 (F := Ideal) x0 x1 x2 x5 x6
      = Cert.Dense.reluArr (Cert.Dense.affineArr (val_main_v27 (F := Ideal) x0 x5 x6) x1 B) := by
  funext i
  obtain ⟨r, j, rfl⟩ : ∃ (r : Fin 50000) (j : Fin 128), i = ix2 r j := ⟨i 0, i 1, eq_ix2 i⟩
  rw [val_main_v32_apply, val_main_v31_apply, val_main_v28_apply, val_main_v30_apply, val_main_v29_apply,
    val_main_call0_v0_apply, val_main_call0_cst_apply, Cert.Dense.reluArr_apply, Cert.Dense.affineArr_ix2]
  unfold Cert.Dense.affine
  have el : ∀ k : Fin 128, lidx_main_v28 (ix2 r j) k = ix2 r k := fun k => funext fun a => Fin.ext (by
    match a with
    | ⟨0, _⟩ => rfl
    | ⟨1, _⟩ => rfl)
  have er : ∀ k : Fin 128, ridx_main_v28 (ix2 r j) k = ix2 k j := fun k => funext fun a => Fin.ext (by
    match a with
    | ⟨0, _⟩ => rfl
    | ⟨1, _⟩ => rfl)
  have eb : idx_main_v29 (idx_main_v30 (ix2 r j)) = ix1 j := funext fun a => Fin.ext (by
    match a with
    | ⟨0, _⟩ => rfl)
  simp only [el, er, eb, hB]
  rfl

/-- The second layer's output is the specification's `X·W + b` of the second aggregation. -/
theorem layer2_eq (x0 : (⟨S50000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128, .f32⟩ : BufTy).Contents (Elt Ideal)) (x5 x6 : (⟨S1600000, .i32⟩ : BufTy).Contents (Elt Ideal))
    (B : S1x128.Idx → EReal) (hB : ∀ j : Fin 128, B (ix2 (0 : Fin 1) j) = x4 (ix1 j)) :
    val_main_v52 (F := Ideal) x0 x1 x2 x3 x4 x5 x6
      = Cert.Dense.affineArr (val_main_v48 (F := Ideal) x0 x1 x2 x5 x6) x3 B := by
  funext i
  obtain ⟨r, j, rfl⟩ : ∃ (r : Fin 50000) (j : Fin 128), i = ix2 r j := ⟨i 0, i 1, eq_ix2 i⟩
  rw [val_main_v52_apply, val_main_v49_apply, val_main_v51_apply, val_main_v50_apply, Cert.Dense.affineArr_ix2]
  unfold Cert.Dense.affine
  have el : ∀ k : Fin 128, lidx_main_v49 (ix2 r j) k = ix2 r k := fun k => funext fun a => Fin.ext (by
    match a with
    | ⟨0, _⟩ => rfl
    | ⟨1, _⟩ => rfl)
  have er : ∀ k : Fin 128, ridx_main_v49 (ix2 r j) k = ix2 k j := fun k => funext fun a => Fin.ext (by
    match a with
    | ⟨0, _⟩ => rfl
    | ⟨1, _⟩ => rfl)
  have eb : idx_main_v50 (idx_main_v51 (ix2 r j)) = ix1 j := funext fun a => Fin.ext (by
    match a with
    | ⟨0, _⟩ => rfl)
  simp only [el, er, eb, hB]
  rfl

end Cert.ReferenceIdeal.Net

end
-- ==== Proof.RefChain.lean ====
/-
  The reference aggregates twice with one function.

  Both graph convolutions scale by the out-degree normalisation, gather along the edges' sources, sum
  into the edges' targets and scale by the in-degree normalisation; only what they are applied to
  differs: the node features first, the first layer's output second. So the second aggregation is the
  first aggregation's function of the first layer's output and the two edge lists.
-/
import proofs.«171438_j19997367730675_1_alg».proof.Proof.Gen.ReferenceIdeal.Read

set_option maxRecDepth 16384

noncomputable section

namespace Cert.ReferenceIdeal.Net

open Cert.ReferenceIdeal Cert.ReferenceIdeal.Read
open Idealize.ShloMosaic Idealize.ShloMosaic.ValueIdx

set_option maxHeartbeats 4000000 in
/-- The second aggregation is the first one's function, applied to the first layer's output. -/
theorem aggregate_again (x0 : (⟨S50000x128, .f32⟩ : BufTy).Contents (Elt Ideal)) (x1 : (⟨S128x128, .f32⟩ : BufTy).Contents (Elt Ideal))
    (x2 : (⟨S128, .f32⟩ : BufTy).Contents (Elt Ideal)) (x5 x6 : (⟨S1600000, .i32⟩ : BufTy).Contents (Elt Ideal)) :
    val_main_v48 (F := Ideal) x0 x1 x2 x5 x6
      = val_main_v27 (F := Ideal) (val_main_v32 (F := Ideal) x0 x1 x2 x5 x6) x5 x6 := by
  rfl

end Cert.ReferenceIdeal.Net

end
-- ==== Proof.Bridge.lean ====
/-
  The idealized kernel's result is the reference's.

  Follow the kernel's result buffer back through @main's five segments. The last broadcast reads the
  second region's result array; that array is `X₂·W₂ + b₂` of the second aggregation `X₂`; the second
  aggregation is the aggregation function of the first region's result array; and that array is
  `max(X₁·W₁ + b₁, 0)` of the first aggregation `X₁` of the node features. The reference program computes
  the same four steps on the host, with each product as one dot_general over all 50000 rows; entry by
  entry the two layers agree with the layer specification, and the aggregations are the same function. So
  the kernel's result buffer holds the reference's last stage of the launch arguments.
-/
import proofs.«171438_j19997367730675_1_alg».proof.Proof.Region0
import proofs.«171438_j19997367730675_1_alg».proof.Proof.Region1
import proofs.«171438_j19997367730675_1_alg».proof.Proof.HostAggregate
import proofs.«171438_j19997367730675_1_alg».proof.Proof.HostMid
import proofs.«171438_j19997367730675_1_alg».proof.Proof.RefLayers
import proofs.«171438_j19997367730675_1_alg».proof.Proof.RefChain

set_option maxRecDepth 16384

noncomputable section

namespace Cert.KernelIdeal.Net

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- A bias laid out as one row by a reshape holds, at column `j` of its one row, the bias at `j`. -/
theorem bias_row (b : S128.Idx → EReal) (j : Fin 128) :
    shapeCast S1x128 b shapeCasts_S128_S1x128 (ix2 (0 : Fin 1) j) = b (ix1 j) :=
  shapeCast_a_1a_apply b shapeCasts_S128_S1x128 0 j

/-- After the first region its result array holds the reference's first-layer output of the launch arguments. -/
theorem W2_v29 (c : Dev nD) :
    W2 m ρ c (Proc.devRef .tc main_v29)
      = Cert.ReferenceIdeal.Read.val_main_v32 (F := Ideal) (m ((c : Thread nD τ).loc main_arg0)) (m ((c : Thread nD τ).loc main_arg1))
          (m ((c : Thread nD τ).loc main_arg2)) (m ((c : Thread nD τ).loc main_arg5)) (m ((c : Thread nD τ).loc main_arg6)) := by
  refine (W2_arr m ρ c 3).trans ?_
  rw [final0 (V1 m ρ) c]
  show Cert.Dense.reluArr (n := 50000) (Cert.Dense.affineArr (n := 50000) (W1 m ρ c (Proc.devRef .tc main_v27))
    (W1 m ρ c (Proc.devRef .tc main_arg1)) (W1 m ρ c (Proc.devRef .tc main_v28))) = _
  rw [W1_v27, W1_arg1, W1_v28]
  exact (Cert.ReferenceIdeal.Net.layer1_eq _ _ _ _ _ _ (bias_row _)).symm

/-- The second aggregation is the reference's, of the launch arguments. -/
theorem W3_v45_ref (c : Dev nD) :
    W3 m ρ c (Proc.devRef .tc main_v45)
      = Cert.ReferenceIdeal.Read.val_main_v48 (F := Ideal) (m ((c : Thread nD τ).loc main_arg0)) (m ((c : Thread nD τ).loc main_arg1))
          (m ((c : Thread nD τ).loc main_arg2)) (m ((c : Thread nD τ).loc main_arg5)) (m ((c : Thread nD τ).loc main_arg6)) := by
  rw [W3_v45, W2_v29]
  exact (Cert.ReferenceIdeal.Net.aggregate_again _ _ _ _ _).symm

/-- After the second region its result array holds the reference's second-layer output of the launch arguments. -/
theorem W4_v47 (c : Dev nD) :
    W4 m ρ c (Proc.devRef .tc main_v47)
      = Cert.ReferenceIdeal.Read.val_main_v52 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (W4_arr m ρ c 3).trans ?_
  rw [final1 (V3 m ρ) c]
  show Cert.Dense.affineArr (n := 50000) (W3 m ρ c (Proc.devRef .tc main_v45))
    (W3 m ρ c (Proc.devRef .tc main_arg3)) (W3 m ρ c (Proc.devRef .tc main_v46)) = _
  rw [W3_v45_ref, W3_arg3, W3_v46]
  exact (Cert.ReferenceIdeal.Net.layer2_eq _ _ _ _ _ _ _ _ (bias_row _)).symm

/-- THE RESULT: the kernel's result buffer after the run is the reference's last stage of the launch arguments. -/
theorem result (c : Dev nD) :
    W5 m ρ c (Proc.devRef .tc main_v48)
      = Cert.ReferenceIdeal.Read.val_main_v53 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  rw [W5_v48, W4_v47]
  rfl

end Cert.KernelIdeal.Net

end
-- ==== Proof.lean ====
/-
  A two-layer graph convolution: the Pallas kernel against its jnp reference, over the extended reals.

  Both programs append a self loop to every node, count out- and in-degrees, and twice do: scale by the
  reciprocal square root of the out-degree, gather along the edges' sources, sum into the edges' targets,
  scale by the reciprocal square root of the in-degree, then apply a dense layer `X·W + b` (the first
  followed by `max(·, 0)`). The graph steps are the same host operations in both programs. They differ
  only in the dense layers: the reference multiplies all 50000 rows at once on the host, while the kernel
  runs a pallas_call over ten blocks of 5000 rows, rounding both factors to bf16 on the way into the
  product — the identity on extended reals. Since an entry of `X·W + b` depends only on its own row of
  `X`, the ten blocks are restrictions of one whole-array function, and that function is the reference's.

  The modules: `DenseSpec` (the layer, entry by entry), `BlockProduct` (a block's product at an entry),
  `Region0` / `Region1` (what each pallas_call leaves in its result array), `HostAggregate`, `HostSmall`,
  `HostMid` (the host stretches, read), `RefLayers`, `RefChain` (the reference's layers and its repeated
  aggregation), `KernelRun` (the kernel's run with its result buffer named), `Bridge` (the result buffer
  is the reference's last stage). Here: the three frames, the empty ledger, and the two runs side by side.
-/
import proofs.«171438_j19997367730675_1_alg».proof.Defs
import proofs.«171438_j19997367730675_1_alg».proof.Proof.Gen.Kernel
import proofs.«171438_j19997367730675_1_alg».proof.Proof.Gen.Kernel.Skeleton
import proofs.«171438_j19997367730675_1_alg».proof.Proof.Gen.Kernel.Launch
import proofs.«171438_j19997367730675_1_alg».proof.Proof.Gen.Kernel.Points
import proofs.«171438_j19997367730675_1_alg».proof.Proof.Gen.Kernel.Frame
import proofs.«171438_j19997367730675_1_alg».proof.Proof.Gen.KernelIdeal
import proofs.«171438_j19997367730675_1_alg».proof.Proof.Gen.KernelIdeal.Skeleton
import proofs.«171438_j19997367730675_1_alg».proof.Proof.Gen.KernelIdeal.Launch
import proofs.«171438_j19997367730675_1_alg».proof.Proof.Gen.KernelIdeal.Points
import proofs.«171438_j19997367730675_1_alg».proof.Proof.Gen.KernelIdeal.Frame
import proofs.«171438_j19997367730675_1_alg».proof.Proof.Gen.ReferenceIdeal
import proofs.«171438_j19997367730675_1_alg».proof.Proof.Gen.ReferenceIdeal.Run
import proofs.«171438_j19997367730675_1_alg».proof.Proof.Gen.ReferenceIdeal.Read
import proofs.«171438_j19997367730675_1_alg».proof.Proof.Gen.Pre_finite_inputs
import proofs.«171438_j19997367730675_1_alg».proof.Proof.KernelRun
import proofs.«171438_j19997367730675_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read over extended reals. -/
theorem preserves : Cert.preserves_Kernel_KernelIdeal := trivial

/-- From memories agreeing on the arguments both programs end with the reference's last stage of those
    arguments in their result buffers: the kernel by `Net.result`, the reference by its own run. No
    finiteness is used: the two sides are the same sums of the same products. -/
theorem algebraic : Cert.algebraic_KernelIdeal_ReferenceIdeal := by
  intro m ρ m' ρ' _ hagree
  refine ⟨fun c => Cert.ReferenceIdeal.Read.val_main_v53 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Net.result m ρ c), (h c).2⟩)
      (Cert.KernelIdeal.Net.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v53_eq]
    obtain ⟨h0, h1, h2, h3, h4, h5, h6⟩ := hagree c
    rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
